-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512 : Shape := ⟨3, ![8, 512, 512]⟩
abbrev S64x1024 : Shape := ⟨2, ![64, 1024]⟩
abbrev S64 : Shape := ⟨1, ![64]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S8x512x512 .f32) (main_arg1 : FVec F S8x512x512 .f32) (main_arg2 : FVec F S64x1024 .f32) (main_arg3 : FVec F S64 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S8x512x512 : Shape := ⟨3, ![8, 512, 512]⟩
abbrev S64x1024 : Shape := ⟨2, ![64, 1024]⟩
abbrev S64 : Shape := ⟨1, ![64]⟩
abbrev S64x512 : Shape := ⟨2, ![64, 512]⟩
abbrev S64x1 : Shape := ⟨2, ![64, 1]⟩
abbrev S8x64x512x512 : Shape := ⟨4, ![8, 64, 512, 512]⟩
abbrev S1x512x512 : Shape := ⟨3, ![1, 512, 512]⟩
abbrev S1x64x128x256 : Shape := ⟨4, ![1, 64, 128, 256]⟩
abbrev S512x512 : Shape := ⟨2, ![512, 512]⟩
abbrev S64x128 : Shape := ⟨2, ![64, 128]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩

abbrev nBuf : Space → Nat
  | .hbm => 8
  | .vmem => 11
  | .smem => 0
  | _ => 0

abbrev bufTy : (tb : Table) → Fin (tcTables nBuf tb) → BufTy
  | .hbm, ⟨0, _⟩ => ⟨S8x512x512, .f32⟩
  | .hbm, ⟨1, _⟩ => ⟨S8x512x512, .f32⟩
  | .hbm, ⟨2, _⟩ => ⟨S64x1024, .f32⟩
  | .hbm, ⟨3, _⟩ => ⟨S64, .f32⟩
  | .hbm, ⟨4, _⟩ => ⟨S64x512, .f32⟩
  | .hbm, ⟨5, _⟩ => ⟨S64x512, .f32⟩
  | .hbm, ⟨6, _⟩ => ⟨S64x1, .f32⟩
  | .hbm, ⟨7, _⟩ => ⟨S8x64x512x512, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S64x512, .f32⟩
  | .local _ .vmem, ⟨5, _⟩ => ⟨S64x512, .f32⟩
  | .local _ .vmem, ⟨6, _⟩ => ⟨S64x1, .f32⟩
  | .local _ .vmem, ⟨7, _⟩ => ⟨S1x64x128x256, .f32⟩
  | .local _ .vmem, ⟨8, _⟩ => ⟨S1x64x128x256, .f32⟩
  | .local _ .vmem, ⟨9, _⟩ => ⟨S64x512, .f32⟩
  | .local _ .vmem, ⟨10, _⟩ => ⟨S64x512, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨3, ![8, 4, 2], ![false, false, false]⟩

def k0_mult1 (i : grid0.Coords) : BitVec 32 :=
  let arg1 : BitVec 32 := BitVec.ofNat 32 (i 1).val
  let c128_i32 : BitVec 32 := 128#32
  let v5 : BitVec 32 := Scalar.muli arg1 c128_i32
  v5
def k0_mult2 (i : grid0.Coords) : BitVec 32 :=
  let arg2 : BitVec 32 := BitVec.ofNat 32 (i 2).val
  let c256_i32 : BitVec 32 := 256#32
  let v7 : BitVec 32 := Scalar.muli arg2 c256_i32
  v7
def k0_off1 (i : grid0.Coords) : Fin 2 → Nat :=
  let c0 : Index := 0#32
  let arg1 : BitVec 32 := BitVec.ofNat 32 (i 1).val
  let c128_i32 : BitVec 32 := 128#32
  let v5 : BitVec 32 := Scalar.muli arg1 c128_i32
  let v6 : BitVec 32 := v5
  let v9 : Index := Scalar.indexCast v6
  ![0, v9.toNat]
def k0_off2 (i : grid0.Coords) : Fin 2 → Nat :=
  let c0_2 : Index := 0#32
  let arg2 : BitVec 32 := BitVec.ofNat 32 (i 2).val
  let c256_i32 : BitVec 32 := 256#32
  let v7 : BitVec 32 := Scalar.muli arg2 c256_i32
  let v8 : BitVec 32 := v7
  let v11 : Index := Scalar.indexCast v8
  ![0, v11.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x64x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  slices_S64x1024_S64x512_0_0 : S64x1024.Slices ![0, 0] S64x512
  slices_S64x1024_S64x512_0_512 : S64x1024.Slices ![0, 512] S64x512
  shapeCasts_S64_S64x1 : S64.ShapeCasts S64x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x512 : S64x1.Broadcasts S64x512
  h_S64x128 : 0 < S64x128.numel
  h_S64x256 : 0 < S64x256.numel
  shapeCasts_S64x128_S64x128x1 : S64x128.ShapeCasts S64x128x1
  shapeCasts_S64x256_S64x1x256 : S64x256.ShapeCasts S64x1x256
  broadcasts_S64x128x1_S64x128x256 : S64x128x1.Broadcasts S64x128x256
  broadcasts_S64x1x256_S64x128x256 : S64x1x256.Broadcasts S64x128x256
  inb_S1x64x128x256_S1x64x128x256_0_0_0_0 : ∀ a, (![0, 0, 0, 0] : Fin 4 → Nat) a + S1x64x128x256.size a ≤ S1x64x128x256.size a
  h_S1x64x128x256 : 0 < S1x64x128x256.numel
  shapeCasts_S1x64x128x256_S64x128x256 : S1x64x128x256.ShapeCasts S64x128x256
  shapeCasts_S64x128x256_S1x64x128x256 : S64x128x256.ShapeCasts S1x64x128x256
  dot_S64x512_S512x512_S64x512_1_1_0_0_n_n_wf : DotDims.WF S64x512 S512x512 S64x512 [1] [1] [0] [0] [] []
  hrank0 : 0 < grid0.rank
  k0_mult1_dvd : ∀ i : grid0.Coords, 128 ∣ (k0_mult1 i).toNat
  k0_mult2_dvd : ∀ i : grid0.Coords, 256 ∣ (k0_mult2 i).toNat
  k0_off1_inb : ∀ i : grid0.Coords, ∀ a, (k0_off1 i) a + S64x128.size a ≤ S64x512.size a
  k0_off2_inb : ∀ i : grid0.Coords, ∀ a, (k0_off2 i) a + S64x256.size a ≤ S64x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x512x512.size a
  hwx0_0 : ∀ i : grid0.Coords, EltTy.bits .f32 = 32 ∨ (Rect.block (s := S8x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x512.size a ≤ S64x512.size a
  hwx0_3 : ∀ i : grid0.Coords, EltTy.bits .f32 = 32 ∨ (Rect.block (s := S64x512) S64x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128x256.size a ≤ S8x64x512x512.size a
  hwx0_5 : ∀ i : grid0.Coords, EltTy.bits .f32 = 32 ∨ (Rect.block (s := S8x64x512x512) S1x64x128x256.size (cc0_transform_5 i) (hinb0_5 i)).WholeWords (EltTy.packing .f32)

variable [Facts₀]

def dot_S64x512_S512x512_S64x512_1_1_0_0_n_n : DotDims S64x512 S512x512 S64x512 where
  lhsContracting := [1]
  rhsContracting := [1]
  lhsNonContracting := [0]
  rhsNonContracting := [0]
  lhsBatch := []
  rhsBatch := []
  wf := dot_S64x512_S512x512_S64x512_1_1_0_0_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x64x128x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x512x512 : Shape := ⟨3, ![8, 512, 512]⟩
abbrev S64x1024 : Shape := ⟨2, ![64, 1024]⟩
abbrev S64 : Shape := ⟨1, ![64]⟩
abbrev S64x512 : Shape := ⟨2, ![64, 512]⟩
abbrev S64x8x512 : Shape := ⟨3, ![64, 8, 512]⟩
abbrev S8x64x512 : Shape := ⟨3, ![8, 64, 512]⟩
abbrev S8x64x512x1 : Shape := ⟨4, ![8, 64, 512, 1]⟩
abbrev S8x64x1x512 : Shape := ⟨4, ![8, 64, 1, 512]⟩
abbrev S8x64x512x512 : Shape := ⟨4, ![8, 64, 512, 512]⟩
abbrev S1x64x1x1 : Shape := ⟨4, ![1, 64, 1, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x512x512, .f32⟩
  | .hbm, ⟨1, _⟩ => ⟨S8x512x512, .f32⟩
  | .hbm, ⟨2, _⟩ => ⟨S64x1024, .f32⟩
  | .hbm, ⟨3, _⟩ => ⟨S64, .f32⟩
  | .hbm, ⟨4, _⟩ => ⟨S64x512, .f32⟩
  | .hbm, ⟨5, _⟩ => ⟨S64x512, .f32⟩
  | .hbm, ⟨6, _⟩ => ⟨S64x8x512, .f32⟩
  | .hbm, ⟨7, _⟩ => ⟨S8x64x512, .f32⟩
  | .hbm, ⟨8, _⟩ => ⟨S64x8x512, .f32⟩
  | .hbm, ⟨9, _⟩ => ⟨S8x64x512, .f32⟩
  | .hbm, ⟨10, _⟩ => ⟨S8x64x512x1, .f32⟩
  | .hbm, ⟨11, _⟩ => ⟨S8x64x1x512, .f32⟩
  | .hbm, ⟨12, _⟩ => ⟨S8x64x512x512, .f32⟩
  | .hbm, ⟨13, _⟩ => ⟨S8x64x512x512, .f32⟩
  | .hbm, ⟨14, _⟩ => ⟨S8x64x512x512, .f32⟩
  | .hbm, ⟨15, _⟩ => ⟨S1x64x1x1, .f32⟩
  | .hbm, ⟨16, _⟩ => ⟨S8x64x512x512, .f32⟩
  | .hbm, ⟨17, _⟩ => ⟨S8x64x512x512, .f32⟩
  | _, _ => ⟨S8x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  slices_S64x1024_S64x512_0_0 : S64x1024.Slices ![0, 0] S64x512
  slices_S64x1024_S64x512_0_512 : S64x1024.Slices ![0, 512] S64x512
  transposes_S64x8x512_S8x64x512_1_0_2 : S64x8x512.Transposes [1, 0, 2] S8x64x512
  bcast_S8x64x512_S8x64x512x1_0_1_2 : S8x64x512.BroadcastsInDim S8x64x512x1 (![0, 1, 2] : Fin 3 → Fin S8x64x512x1.rank)
  bcast_S8x64x512_S8x64x1x512_0_1_3 : S8x64x512.BroadcastsInDim S8x64x1x512 (![0, 1, 3] : Fin 3 → Fin S8x64x1x512.rank)
  bcast_S8x64x512x1_S8x64x512x512_0_1_2_3 : S8x64x512x1.BroadcastsInDim S8x64x512x512 (![0, 1, 2, 3] : Fin 4 → Fin S8x64x512x512.rank)
  bcast_S8x64x1x512_S8x64x512x512_0_1_2_3 : S8x64x1x512.BroadcastsInDim S8x64x512x512 (![0, 1, 2, 3] : Fin 4 → Fin S8x64x512x512.rank)
  bcast_S64_S1x64x1x1_1 : S64.BroadcastsInDim S1x64x1x1 (![1] : Fin 1 → Fin S1x64x1x1.rank)
  bcast_S1x64x1x1_S8x64x512x512_0_1_2_3 : S1x64x1x1.BroadcastsInDim S8x64x512x512 (![0, 1, 2, 3] : Fin 4 → Fin S8x64x512x512.rank)
  dot_S64x512_S8x512x512_S64x8x512_1_2_0_01_n_n_wf : DotDims.WF S64x512 S8x512x512 S64x8x512 [1] [2] [0] [0, 1] [] []

variable [Facts₀]

def dot_S64x512_S8x512x512_S64x8x512_1_2_0_01_n_n : DotDims S64x512 S8x512x512 S64x8x512 where
  lhsContracting := [1]
  rhsContracting := [2]
  lhsNonContracting := [0]
  rhsNonContracting := [0, 1]
  lhsBatch := []
  rhsBatch := []
  wf := dot_S64x512_S8x512x512_S64x8x512_1_2_0_01_n_n_wf

class Facts : Prop extends Facts₀ where

variable [Facts]
-- ==== Proof.TileContents.lean ====
/-
  What one run of the kernel body leaves in its buffers, over the three stored values.

  At the first tile of a sentence the body stores the head table and the dependent table whole into the two
  carried [64, 512] buffers, then reads 128 columns of the first and 256 columns of the second back and stores
  their broadcast sum as the output block. At every other tile it stores nothing into the carried buffers and
  reads the same columns from what they already hold. Which columns: those starting at 128 times the tile's row
  coordinate, and at 256 times its column coordinate.
-/
import proofs.«170263_j56049323213774_2_alg».proof.Proof.Gen.KernelIdeal.Frame
import Idealize.ShloMosaic.Lib.Pipeline.Value
import Idealize.ShloMosaic.Lib.Tactic

set_option maxRecDepth 16384

noncomputable section

namespace Cert.KernelIdeal.Tile

open Cert.KernelIdeal Cert.KernelIdeal.Gen Idealize.ShloMosaic Idealize.ShloMosaic.TcCoe Idealize.ShloMosaic.Tactic
open Idealize.SL.Sem

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- A buffer stored whole once reads back what was stored, whatever it held before. -/
theorem read_one_whole_store {Val : EltTy → Type} {sig : RefSig} {κ : Kind} {sp : Space} {S : Shape} {e : EltTy}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  exact View.read_writes_whole v f w

/-- The 128 columns of a [64, 512] table that the tile at coordinates `i` reads: those from 128 · i₁ on. -/
abbrev headCols (i : grid0.Coords) (H : Vec F S64x512 .f32) : Vec F S64x128 .f32 :=
  View.ld H (Rect.unit (s := S64x512) (k0_off1 i) S64x128.size (Gen.k0_off1_inb i))

/-- The 256 columns of a [64, 512] table that the tile at coordinates `i` reads: those from 256 · i₂ on. -/
abbrev depCols (i : grid0.Coords) (Dt : Vec F S64x512 .f32) : Vec F S64x256 .f32 :=
  View.ld Dt (Rect.unit (s := S64x512) (k0_off2 i) S64x256.size (Gen.k0_off2_inb i))

section
variable (c : Dev nD) (i : grid0.Coords)
  (a3 : Memref sig .tc .vmem S1x512x512 .f32) (h3 : a3.IsWhole) (a4 : Memref sig .tc .vmem S1x512x512 .f32) (h4 : a4.IsWhole)
  (a5 : Memref sig .tc .vmem S64x512 .f32) (h5 : a5.IsWhole) (a6 : Memref sig .tc .vmem S64x512 .f32) (h6 : a6.IsWhole)
  (a7 : Memref sig .tc .vmem S64x1 .f32) (h7 : a7.IsWhole) (a8 : Memref sig .tc .vmem S1x64x128x256 .f32) (h8 : a8.IsWhole)
  (a9 : Memref sig .tc .vmem S64x512 .f32) (h9 : a9.IsWhole) (a10 : Memref sig .tc .vmem S64x512 .f32) (h10 : a10.IsWhole)
  (x0 x1 : Vec F S1x512x512 .f32) (x2 x3 : Vec F S64x512 .f32) (x4 : Vec F S64x1 .f32)

/-- First tile of a sentence: the first carried buffer ends holding the head table of this tile's blocks. -/
theorem head_table_stored (hc : cond0_0 i) :
    sout0_A_0 c i a3 h3 a4 h4 a5 h5 a6 h6 a7 h7 a8 h8 a9 h9 a10 h10 hc x0 x1 x2 x3 x4 = k0_pay1 x0 x2 x4 := by
  unfold sout0_A_0
  rw [View.read_writes_eq_canon _ _ _ (scover0_A_0 c i a3 h3 a4 h4 a5 h5 a6 h6 a7 h7 a8 h8 a9 h9 a10 h10 hc x0 x1 x2 x3 x4)]
  unfold kernelRun0_A
  dsimp only
  sl_unfold_words
  rw [View.canon_unit_zero zero2]
  simp only [View.readAt_eq_ld, h3.read_unread, h5.read_unread, h7.read_unread,
    View.ld_unit_zero (S := S1x512x512) zero3, View.ld_unit_zero (S := S64x512) zero2,
    View.ld_unit_zero (S := S64x1) zero2]

/-- First tile of a sentence: the second carried buffer ends holding the dependent table of this tile's blocks. -/
theorem dep_table_stored (hc : cond0_0 i) :
    sout0_A_1 c i a3 h3 a4 h4 a5 h5 a6 h6 a7 h7 a8 h8 a9 h9 a10 h10 hc x0 x1 x2 x3 x4 = k0_pay2 x1 x3 := by
  unfold sout0_A_1
  rw [View.read_writes_eq_canon _ _ _ (scover0_A_1 c i a3 h3 a4 h4 a5 h5 a6 h6 a7 h7 a8 h8 a9 h9 a10 h10 hc x0 x1 x2 x3 x4)]
  unfold kernelRun0_A
  dsimp only
  sl_unfold_words
  rw [View.canon_unit_zero zero2]
  simp only [View.readAt_eq_ld, h4.read_unread, h6.read_unread,
    View.ld_unit_zero (S := S1x512x512) zero3, View.ld_unit_zero (S := S64x512) zero2]

/-- First tile of a sentence: the output block is the broadcast sum of this tile's columns of the two tables
    just stored. -/
theorem block_first_tile (hc : cond0_0 i) :
    out0_A_5 c i a3 h3 a4 h4 a5 h5 a6 h6 a7 h7 a8 h8 a9 h9 a10 h10 hc x0 x1 x2 x3 x4
      = k0_pay3 (headCols i (k0_pay1 x0 x2 x4)) (depCols i (k0_pay2 x1 x3)) := by
  unfold out0_A_5
  rw [View.read_writes_eq_canon _ _ _ (cover0_A_5 c i a3 h3 a4 h4 a5 h5 a6 h6 a7 h7 a8 h8 a9 h9 a10 h10 hc x0 x1 x2 x3 x4)]
  unfold kernelRun0_A
  dsimp only
  sl_unfold_words
  rw [View.canon_unit_zero zero4]
  simp only [View.readAt_eq_ld, h3.read_unread, h4.read_unread, h5.read_unread, h6.read_unread, h7.read_unread,
    View.ld_unit_zero (S := S1x512x512) zero3, View.ld_unit_zero (S := S64x512) zero2,
    View.ld_unit_zero (S := S64x1) zero2]
  rw [read_one_whole_store (Val := Elt F) a9.view _ zero2 _ (k0_pay1 x0 x2 x4),
    read_one_whole_store (Val := Elt F) a10.view _ zero2 _ (k0_pay2 x1 x3)]
  rfl

/-- Any other tile: the output block is the broadcast sum of this tile's columns of the two carried tables. -/
theorem block_later_tile (hc : ¬cond0_0 i) (xs0 xs1 : Vec F S64x512 .f32) :
    out0_B_5 c i a3 h3 a4 h4 a5 h5 a6 h6 a7 h7 a8 h8 a9 h9 a10 h10 hc x0 x1 x2 x3 x4 xs0 xs1 = k0_pay3 (headCols i xs0) (depCols i xs1) := by
  unfold out0_B_5
  rw [View.read_writes_eq_canon _ _ _ (cover0_B_5 c i a3 h3 a4 h4 a5 h5 a6 h6 a7 h7 a8 h8 a9 h9 a10 h10 hc x0 x1 x2 x3 x4 xs0 xs1)]
  unfold kernelRun0_B
  dsimp only
  rw [View.canon_unit_zero zero4]
  simp only [View.readAt_eq_ld, h9.read_unread, h10.read_unread]

end

end Cert.KernelIdeal.Tile

end
-- ==== Proof.StoredValues.lean ====
/-
  What the kernel body's three stores hold, entry by entry, on the extended reals.

  At the first tile of a sentence the body fills two [64, 512] tables (label, token): the head table, a product of the
  head weights with the sentence's head block transposed plus the bias column; and the dependent table, the same
  product for the dependent weights and block, with no bias. A change of float format is the identity on the
  extended reals and the product accumulates from zero, so entry (l, t) of the head table is
      sum over d of Wh[l, d] * head[t, d]  +  bias[l],
  and of the dependent table  sum over d of Wd[l, d] * dep[t, d].
  At every tile the body then adds 128 columns of the head table, stretched along a new last axis, to 256 columns of
  the dependent table, stretched along a new middle axis: entry (l, p, q) of the [64, 128, 256] block is
  (head columns)[l, p] + (dependent columns)[l, q].
-/
import proofs.«170263_j56049323213774_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stored

open Cert.KernelIdeal Cert.KernelIdeal.Gen Idealize.ShloMosaic Idealize.ShloMosaic.ValueIdx

/-- The body's matrix product: rows of the left factor against ROWS of the right factor (both contract their
    second axis). -/
abbrev rowsByRows : DotDims S64x512 S512x512 S64x512 := dot_S64x512_S512x512_S64x512_1_1_0_0_n_n

/-! ## The product of a [64, 512] matrix with the transpose of a [512, 512] matrix, at an entry -/

theorem left_row (j : S64x512.Idx) (q : rowsByRows.contr.Idx) : (rowsByRows.lhsIdx j q 0).val = (j 0).val := by
  unfold DotDims.lhsIdx
  rw [dif_neg (show ¬(0 : Fin S64x512.rank) ∈ rowsByRows.lhsBatch by decide),
    dif_pos (show (0 : Fin S64x512.rank) ∈ rowsByRows.lhsNonContracting by decide)]
  rfl

theorem left_inner (j : S64x512.Idx) (q : rowsByRows.contr.Idx) :
    (rowsByRows.lhsIdx j q 1).val = (q ⟨0, by decide⟩).val :=
  rowsByRows.lhsIdx_val_of_single rfl j q

theorem right_row (j : S64x512.Idx) (q : rowsByRows.contr.Idx) : (rowsByRows.rhsIdx j q 0).val = (j 1).val := by
  unfold DotDims.rhsIdx
  rw [dif_neg (show ¬(0 : Fin S512x512.rank) ∈ rowsByRows.rhsBatch by decide),
    dif_pos (show (0 : Fin S512x512.rank) ∈ rowsByRows.rhsNonContracting by decide)]
  rfl

theorem right_inner (j : S64x512.Idx) (q : rowsByRows.contr.Idx) :
    (rowsByRows.rhsIdx j q 1).val = (q ⟨0, by decide⟩).val :=
  rowsByRows.rhsIdx_val_of_single rfl j q

/-- Accumulated from zero, entry (l, t) of A · Bᵀ is the sum over the shared axis of A[l, d] · B[t, d]. -/
theorem product_at (A : FVec Ideal S64x512 .bf16) (B : FVec Ideal S512x512 .bf16) (l : Fin 64) (t : Fin 512) :
    matmul rowsByRows none A B (constant (F := Ideal) S64x512 .f32 0x00000000#32) (ix2 l t)
      = ∑ d : Fin 512, A (ix2 l d) * B (ix2 t d) := by
  simp only [matmul]
  rw [Ideal.matmul_constant_zero_apply, ← Equiv.sum_comp (contrEquiv1 rowsByRows 512 rfl rfl).symm]
  refine Finset.sum_congr rfl fun k _ => ?_
  have hk := contrEquiv1_symm_val rowsByRows 512 rfl rfl k
  have el : rowsByRows.lhsIdx (ix2 l t) ((contrEquiv1 rowsByRows 512 rfl rfl).symm k) = ix2 l k :=
    funext fun a => Fin.ext (by
      match a with
      | ⟨0, _⟩ => exact left_row _ _
      | ⟨1, _⟩ => exact (left_inner _ _).trans hk)
  have er : rowsByRows.rhsIdx (ix2 l t) ((contrEquiv1 rowsByRows 512 rfl rfl).symm k) = ix2 t k :=
    funext fun a => Fin.ext (by
      match a with
      | ⟨0, _⟩ => exact right_row _ _
      | ⟨1, _⟩ => exact (right_inner _ _).trans hk)
  rw [el, er]

/-! ## The layout steps, each at an entry -/

/-- The bias column [64, 1] stretched to [64, 512] reads its row's one entry. -/
theorem column_stretched_at (x : FVec Ideal S64x1 .f32) (l : Fin 64) (t : Fin 512) :
    broadcastTo S64x512 x broadcasts_S64x1_S64x512 (ix2 l t) = x (ix2 l (0 : Fin 1)) :=
  broadcastTo_apply x broadcasts_S64x1_S64x512 (ix2 l t) (ix2 l (0 : Fin 1)) (fun a => match a with
    | ⟨0, _⟩ => by show l.val = if (64 : Nat) = 1 then 0 else l.val; rw [if_neg (by decide)]
    | ⟨1, _⟩ => by show (0 : Nat) = if (1 : Nat) = 1 then 0 else t.val; rw [if_pos rfl])

/-- [64, 128] given a trailing unit axis: (l, p, 0) reads (l, p). -/
theorem trailing_unit_at (x : FVec Ideal S64x128 .f32) (l : Fin 64) (p : Fin 128) :
    shapeCast S64x128x1 x shapeCasts_S64x128_S64x128x1 (ix3 l p (0 : Fin 1)) = x (ix2 l p) :=
  shapeCast_apply x shapeCasts_S64x128_S64x128x1 _ _ (by
    rw [Shape.rowMajor_val_three, Shape.rowMajor_val_two]
    show l.val * 128 + p.val = (l.val * 128 + p.val) * 1 + 0
    omega)

/-- [64, 256] given a middle unit axis: (l, 0, q) reads (l, q). -/
theorem middle_unit_at (x : FVec Ideal S64x256 .f32) (l : Fin 64) (q : Fin 256) :
    shapeCast S64x1x256 x shapeCasts_S64x256_S64x1x256 (ix3 l (0 : Fin 1) q) = x (ix2 l q) :=
  shapeCast_apply x shapeCasts_S64x256_S64x1x256 _ _ (by
    rw [Shape.rowMajor_val_three, Shape.rowMajor_val_two]
    show l.val * 256 + q.val = (l.val * 1 + 0) * 256 + q.val
    omega)

/-- [64, 128, 1] stretched along its last axis to [64, 128, 256]. -/
theorem last_axis_stretched_at (x : FVec Ideal S64x128x1 .f32) (l : Fin 64) (p : Fin 128) (q : Fin 256) :
    broadcastTo S64x128x256 x broadcasts_S64x128x1_S64x128x256 (ix3 l p q) = x (ix3 l p (0 : Fin 1)) :=
  broadcastTo_apply x broadcasts_S64x128x1_S64x128x256 (ix3 l p q) (ix3 l p (0 : Fin 1)) (fun a => match a with
    | ⟨0, _⟩ => by show l.val = if (64 : Nat) = 1 then 0 else l.val; rw [if_neg (by decide)]
    | ⟨1, _⟩ => by show p.val = if (128 : Nat) = 1 then 0 else p.val; rw [if_neg (by decide)]
    | ⟨2, _⟩ => by show (0 : Nat) = if (1 : Nat) = 1 then 0 else q.val; rw [if_pos rfl])

/-- [64, 1, 256] stretched along its middle axis to [64, 128, 256]. -/
theorem middle_axis_stretched_at (x : FVec Ideal S64x1x256 .f32) (l : Fin 64) (p : Fin 128) (q : Fin 256) :
    broadcastTo S64x128x256 x broadcasts_S64x1x256_S64x128x256 (ix3 l p q) = x (ix3 l (0 : Fin 1) q) :=
  broadcastTo_apply x broadcasts_S64x1x256_S64x128x256 (ix3 l p q) (ix3 l (0 : Fin 1) q) (fun a => match a with
    | ⟨0, _⟩ => by show l.val = if (64 : Nat) = 1 then 0 else l.val; rw [if_neg (by decide)]
    | ⟨1, _⟩ => by show (0 : Nat) = if (1 : Nat) = 1 then 0 else p.val; rw [if_pos rfl]
    | ⟨2, _⟩ => by show q.val = if (256 : Nat) = 1 then 0 else q.val; rw [if_neg (by decide)])

/-! ## The three stored values -/

/-- The head table at (l, t): row l of the head weights against row t of the head block, plus the bias of label l. -/
theorem head_table_at (x0 : Vec Ideal S1x512x512 .f32) (x2 : Vec Ideal S64x512 .f32) (x4 : Vec Ideal S64x1 .f32)
    (l : Fin 64) (t : Fin 512) :
    k0_pay1 x0 x2 x4 (ix2 l t)
      = (∑ d : Fin 512, x2 (ix2 l d) * x0 (ix3 (0 : Fin 1) t d)) + x4 (ix2 l (0 : Fin 1)) := by
  unfold k0_pay1
  simp only [shapeCast_self]
  rw [addf_apply, product_at, column_stretched_at]
  congr 1
  refine Finset.sum_congr rfl fun d _ => ?_
  rw [truncf_apply, truncf_apply]
  congr 1
  exact shapeCast_1ab_ab_apply x0 shapeCasts_S1x512x512_S512x512 t d

/-- The dependent table at (l, t): row l of the dependent weights against row t of the dependent block. -/
theorem dep_table_at (x1 : Vec Ideal S1x512x512 .f32) (x3 : Vec Ideal S64x512 .f32) (l : Fin 64) (t : Fin 512) :
    k0_pay2 x1 x3 (ix2 l t) = ∑ d : Fin 512, x3 (ix2 l d) * x1 (ix3 (0 : Fin 1) t d) := by
  unfold k0_pay2
  simp only [shapeCast_self]
  rw [product_at]
  refine Finset.sum_congr rfl fun d _ => ?_
  rw [truncf_apply, truncf_apply]
  congr 1
  exact shapeCast_1ab_ab_apply x1 shapeCasts_S1x512x512_S512x512 t d

/-- The output block at (0, l, p, q): column p of the head columns plus column q of the dependent columns, in row l. -/
theorem block_at (hc : Vec Ideal S64x128 .f32) (dc : Vec Ideal S64x256 .f32) (l : Fin 64) (p : Fin 128) (q : Fin 256) :
    k0_pay3 hc dc (ix4 (0 : Fin 1) l p q) = hc (ix2 l p) + dc (ix2 l q) := by
  unfold k0_pay3
  rw [shapeCast_abc_1abc_apply _ shapeCasts_S64x128x256_S1x64x128x256 (0 : Fin 1) l p q, addf_apply,
    last_axis_stretched_at, middle_axis_stretched_at, trailing_unit_at, middle_unit_at]

end Cert.KernelIdeal.Stored

end
-- ==== Proof.BiaffineSpec.lean ====
/-
  The biaffine label score as ONE function of the four argument arrays, index by index, on the extended reals.

  With head, dep : [8, 512, 512], W : [64, 1024] (its left half scores heads, its right half dependents) and
  bias : [64],
      out[b, l, i, j] = (sum over d of W[l, d] * head[b, i, d]  +  bias[l])  +  sum over d of W[l, 512 + d] * dep[b, j, d].
  The grouping written here is the one in which the bias is added to the head score first; on the extended reals
  addition is commutative and associative (an infinity of either sign is absorbed the same way in every grouping),
  so the other grouping, (head score + dependent score) + bias, is the same number: `add_right_comm`, with no
  finiteness of any entry needed.
-/
import Idealize.ShloMosaic.PureOps.Ideal
import Idealize.ShloMosaic.Lib.ValueIdx

noncomputable section

namespace Biaffine

open Idealize.ShloMosaic Idealize.ShloMosaic.ValueIdx

/-- Column `d` of the left half of a row of `W`. -/
abbrev leftCol (d : Fin 512) : Fin 1024 := ⟨d.val, by have := d.isLt; omega⟩

/-- Column `d` of the right half of a row of `W`. -/
abbrev rightCol (d : Fin 512) : Fin 1024 := ⟨512 + d.val, by have := d.isLt; omega⟩

/-- The head score of label `l` at token `i` of sentence `b`: row `l` of the left half of `W` against `head[b, i, ·]`. -/
def headScore (head : (⟨3, ![8, 512, 512]⟩ : Shape).Idx → EReal) (W : (⟨2, ![64, 1024]⟩ : Shape).Idx → EReal)
    (b : Fin 8) (l : Fin 64) (i : Fin 512) : EReal :=
  ∑ d : Fin 512, W (ix2 l (leftCol d)) * head (ix3 b i d)

/-- The dependent score of label `l` at token `j` of sentence `b`: row `l` of the right half of `W` against `dep[b, j, ·]`. -/
def depScore (dep : (⟨3, ![8, 512, 512]⟩ : Shape).Idx → EReal) (W : (⟨2, ![64, 1024]⟩ : Shape).Idx → EReal)
    (b : Fin 8) (l : Fin 64) (j : Fin 512) : EReal :=
  ∑ d : Fin 512, W (ix2 l (rightCol d)) * dep (ix3 b j d)

/-- The head scores of sentence `b` with the bias folded in, as a [64, 512] table (label, token). -/
def headTable (head : (⟨3, ![8, 512, 512]⟩ : Shape).Idx → EReal) (W : (⟨2, ![64, 1024]⟩ : Shape).Idx → EReal)
    (bias : (⟨1, ![64]⟩ : Shape).Idx → EReal) (b : Fin 8) : (⟨2, ![64, 512]⟩ : Shape).Idx → EReal :=
  fun y => headScore head W b (y 0) (y 1) + bias (ix1 (y 0))

/-- The dependent scores of sentence `b`, as a [64, 512] table (label, token). -/
def depTable (dep : (⟨3, ![8, 512, 512]⟩ : Shape).Idx → EReal) (W : (⟨2, ![64, 1024]⟩ : Shape).Idx → EReal)
    (b : Fin 8) : (⟨2, ![64, 512]⟩ : Shape).Idx → EReal :=
  fun y => depScore dep W b (y 0) (y 1)

/-- The whole result: entry (b, l, i, j) is the biased head score at (b, l, i) plus the dependent score at (b, l, j). -/
def score (head dep : (⟨3, ![8, 512, 512]⟩ : Shape).Idx → EReal) (W : (⟨2, ![64, 1024]⟩ : Shape).Idx → EReal)
    (bias : (⟨1, ![64]⟩ : Shape).Idx → EReal) : (⟨4, ![8, 64, 512, 512]⟩ : Shape).Idx → EReal :=
  fun y => headTable head W bias (y 0) (ix2 (y 1) (y 2)) + depTable dep W (y 0) (ix2 (y 1) (y 3))

/-- The result at explicit coordinates. -/
theorem score_ix4 (head dep : (⟨3, ![8, 512, 512]⟩ : Shape).Idx → EReal) (W : (⟨2, ![64, 1024]⟩ : Shape).Idx → EReal)
    (bias : (⟨1, ![64]⟩ : Shape).Idx → EReal) (b : Fin 8) (l : Fin 64) (i j : Fin 512) :
    score head dep W bias (ix4 b l i j) = (headScore head W b l i + bias (ix1 l)) + depScore dep W b l j := rfl

/-- The same entry with the bias added last: the two groupings of the three terms agree on the extended reals. -/
theorem score_ix4_bias_last (head dep : (⟨3, ![8, 512, 512]⟩ : Shape).Idx → EReal) (W : (⟨2, ![64, 1024]⟩ : Shape).Idx → EReal)
    (bias : (⟨1, ![64]⟩ : Shape).Idx → EReal) (b : Fin 8) (l : Fin 64) (i j : Fin 512) :
    score head dep W bias (ix4 b l i j) = (headScore head W b l i + depScore dep W b l j) + bias (ix1 l) := by
  rw [score_ix4, add_right_comm]

end Biaffine

end
-- ==== Proof.TablesOfArguments.lean ====
/-
  The two stored tables are the sentence's score tables, once the loaded blocks are known entry by entry.

  If the head block holds sentence b of `head`, the head-weight block the left half of `W`, and the bias column
  the entries of `bias`, then the head table is the table of biased head scores of sentence b; likewise the
  dependent table, from sentence b of `dep` and the right half of `W`. Stated over plain vectors with the blocks'
  entries as hypotheses, so that it can be applied to any window's block.
-/
import proofs.«170263_j56049323213774_2_alg».proof.Proof.StoredValues
import proofs.«170263_j56049323213774_2_alg».proof.Proof.BiaffineSpec

noncomputable section

namespace Cert.KernelIdeal.Stored

open Cert.KernelIdeal Cert.KernelIdeal.Gen Idealize.ShloMosaic Idealize.ShloMosaic.ValueIdx

/-- The head table of blocks that hold sentence b, the left half of W and the bias is the biased head-score table of b. -/
theorem head_table_of (x0 : Vec Ideal S1x512x512 .f32) (x2 : Vec Ideal S64x512 .f32) (x4 : Vec Ideal S64x1 .f32)
    (head : (⟨3, ![8, 512, 512]⟩ : Shape).Idx → EReal) (W : (⟨2, ![64, 1024]⟩ : Shape).Idx → EReal)
    (bias : (⟨1, ![64]⟩ : Shape).Idx → EReal) (b : Fin 8)
    (e0 : ∀ r d : Fin 512, x0 (ix3 (0 : Fin 1) r d) = head (ix3 b r d))
    (e2 : ∀ (l : Fin 64) (d : Fin 512), x2 (ix2 l d) = W (ix2 l (Biaffine.leftCol d)))
    (e4 : ∀ l : Fin 64, x4 (ix2 l (0 : Fin 1)) = bias (ix1 l)) :
    k0_pay1 x0 x2 x4 = Biaffine.headTable head W bias b := by
  funext y
  obtain ⟨l, t, rfl⟩ : ∃ (l : Fin 64) (t : Fin 512), y = ix2 l t := ⟨y 0, y 1, eq_ix2 y⟩
  rw [head_table_at, e4]
  show _ = Biaffine.headScore head W b l t + bias (ix1 l)
  congr 1
  exact Finset.sum_congr rfl fun d _ => by rw [e2, e0]

/-- The dependent table of blocks that hold sentence b and the right half of W is the dependent-score table of b. -/
theorem dep_table_of (x1 : Vec Ideal S1x512x512 .f32) (x3 : Vec Ideal S64x512 .f32)
    (dep : (⟨3, ![8, 512, 512]⟩ : Shape).Idx → EReal) (W : (⟨2, ![64, 1024]⟩ : Shape).Idx → EReal) (b : Fin 8)
    (e1 : ∀ r d : Fin 512, x1 (ix3 (0 : Fin 1) r d) = dep (ix3 b r d))
    (e3 : ∀ (l : Fin 64) (d : Fin 512), x3 (ix2 l d) = W (ix2 l (Biaffine.rightCol d))) :
    k0_pay2 x1 x3 = Biaffine.depTable dep W b := by
  funext y
  obtain ⟨l, t, rfl⟩ : ∃ (l : Fin 64) (t : Fin 512), y = ix2 l t := ⟨y 0, y 1, eq_ix2 y⟩
  rw [dep_table_at]
  show _ = Biaffine.depScore dep W b l t
  exact Finset.sum_congr rfl fun d _ => by rw [e3, e1]

end Cert.KernelIdeal.Stored

end
-- ==== Proof.CarriedTables.lean ====
/-
  The carried buffers hold the current sentence's two score tables at every tile, so every tile's output block is
  known in closed form.

  The grid is 8 sentences by 4 by 2 tiles, walked sentence by sentence: point number n works on sentence n / 8,
  and the points with n divisible by 8 are the sentences' first tiles. The head and dependent blocks move with the
  sentence only, and the weight and bias blocks never move; read through their windows, they are sentence n / 8 of
  `head` and `dep`, the two halves of `W`, and `bias`. At a first tile the body stores the sentence's tables; at any
  other tile it leaves the buffers as the tile before left them, and that tile belongs to the same sentence
  (n - 1 and n have the same quotient by 8 unless 8 divides n). So by induction on the point the buffers hold the
  tables of sentence n / 8 after point n, and the block written at point n is the broadcast sum of that sentence's
  table columns.
-/
import proofs.«170263_j56049323213774_2_alg».proof.Proof.TileContents
import proofs.«170263_j56049323213774_2_alg».proof.Proof.TablesOfArguments
import proofs.«170263_j56049323213774_2_alg».proof.Proof.Gen.KernelIdeal.Value
import Idealize.ShloMosaic.Lib.StableHlo.Run

set_option maxRecDepth 16384

noncomputable section

namespace Cert.KernelIdeal.Carried

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## Where each window's block sits, decided once over the 64 points -/

theorem block_places : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The sentence point number `n` works on. -/
def sentence (n : ℕ) (h : n < cfg0.N) : Fin 8 := ⟨n / 8, by have hN : cfg0.N = 64 := N_0; omega⟩

/-! ## The arrays the region finds: the two halves of W and the bias as a column -/

theorem left_half (c : Dev nD) : (V m c main_v0 : S64x512.Idx → EReal)
    = extractStridedSlice S64x512 ![0, 0] (m ((c : Thread nD τ).loc main_arg2)) Facts₀.slices_S64x1024_S64x512_0_0 := by
  dsimp only [Gen.V, Gen.hostOps0]; after_results

theorem right_half (c : Dev nD) : (V m c main_v1 : S64x512.Idx → EReal)
    = extractStridedSlice S64x512 ![0, 512] (m ((c : Thread nD τ).loc main_arg2)) Facts₀.slices_S64x1024_S64x512_0_512 := by
  dsimp only [Gen.V, Gen.hostOps0]; after_results

theorem bias_column (c : Dev nD) : (V m c main_v2 : S64x1.Idx → EReal)
    = shapeCast S64x1 (m ((c : Thread nD τ).loc main_arg3)) Facts₀.shapeCasts_S64_S64x1 := by
  dsimp only [Gen.V, Gen.hostOps0]; after_results; rfl

/-! ## The five input blocks, entry by entry -/

theorem head_block_at (c : Dev nD) (t : Fin cfg0.N) (r d : Fin 512) :
    (iblk m c 0 t : Vec Ideal S1x512x512 .f32) (ix3 (0 : Fin 1) r d)
      = m ((c : Thread nD τ).loc main_arg0) (ix3 (sentence t.val t.isLt) r d) := by
  obtain ⟨e0, e1, e2, -⟩ := block_places t
  show V m c main_arg0 (((cfg0.win 0).blk t).view.emb (ix3 (0 : Fin 1) r d)) = _
  rw [V_main_arg0]
  refine congrArg _ (funext fun a => Fin.ext ?_)
  match a with
  | ⟨0, _⟩ => show win0_0.index t (0 : Fin 3) * 1 + 1 * 0 = t.val / 8; omega
  | ⟨1, _⟩ => show win0_0.index t (1 : Fin 3) * 512 + 1 * r.val = r.val; omega
  | ⟨2, _⟩ => show win0_0.index t (2 : Fin 3) * 512 + 1 * d.val = d.val; omega

theorem dep_block_at (c : Dev nD) (t : Fin cfg0.N) (r d : Fin 512) :
    (iblk m c 1 t : Vec Ideal S1x512x512 .f32) (ix3 (0 : Fin 1) r d)
      = m ((c : Thread nD τ).loc main_arg1) (ix3 (sentence t.val t.isLt) r d) := by
  obtain ⟨-, -, -, e0, e1, e2, -⟩ := block_places t
  show V m c main_arg1 (((cfg0.win 1).blk t).view.emb (ix3 (0 : Fin 1) r d)) = _
  rw [V_main_arg1]
  refine congrArg _ (funext fun a => Fin.ext ?_)
  match a with
  | ⟨0, _⟩ => show win0_1.index t (0 : Fin 3) * 1 + 1 * 0 = t.val / 8; omega
  | ⟨1, _⟩ => show win0_1.index t (1 : Fin 3) * 512 + 1 * r.val = r.val; omega
  | ⟨2, _⟩ => show win0_1.index t (2 : Fin 3) * 512 + 1 * d.val = d.val; omega

theorem head_weights_at (c : Dev nD) (t : Fin cfg0.N) (l : Fin 64) (d : Fin 512) :
    (iblk m c 2 t : Vec Ideal S64x512 .f32) (ix2 l d)
      = m ((c : Thread nD τ).loc main_arg2) (ix2 l (Biaffine.leftCol d)) := by
  obtain ⟨-, -, -, -, -, -, e0, e1, -⟩ := block_places t
  show V m c main_v0 (((cfg0.win 2).blk t).view.emb (ix2 l d)) = _
  rw [left_half]
  refine extractStridedSlice_apply _ _ _ _ _ (fun a => ?_)
  match a with
  | ⟨0, _⟩ => show l.val = 0 + (win0_2.index t (0 : Fin 2) * 64 + 1 * l.val); omega
  | ⟨1, _⟩ => show d.val = 0 + (win0_2.index t (1 : Fin 2) * 512 + 1 * d.val); omega

theorem dep_weights_at (c : Dev nD) (t : Fin cfg0.N) (l : Fin 64) (d : Fin 512) :
    (iblk m c 3 t : Vec Ideal S64x512 .f32) (ix2 l d)
      = m ((c : Thread nD τ).loc main_arg2) (ix2 l (Biaffine.rightCol d)) := by
  obtain ⟨-, -, -, -, -, -, -, -, e0, e1, -⟩ := block_places t
  show V m c main_v1 (((cfg0.win 3).blk t).view.emb (ix2 l d)) = _
  rw [right_half]
  refine extractStridedSlice_apply _ _ _ _ _ (fun a => ?_)
  match a with
  | ⟨0, _⟩ => show l.val = 0 + (win0_3.index t (0 : Fin 2) * 64 + 1 * l.val); omega
  | ⟨1, _⟩ => show 512 + d.val = 512 + (win0_3.index t (1 : Fin 2) * 512 + 1 * d.val); omega

theorem bias_block_at (c : Dev nD) (t : Fin cfg0.N) (l : Fin 64) :
    (iblk m c 4 t : Vec Ideal S64x1 .f32) (ix2 l (0 : Fin 1)) = m ((c : Thread nD τ).loc main_arg3) (ix1 l) := by
  obtain ⟨-, -, -, -, -, -, -, -, -, -, e0, e1⟩ := block_places t
  show V m c main_v2 (((cfg0.win 4).blk t).view.emb (ix2 l (0 : Fin 1))) = _
  rw [bias_column]
  refine shapeCast_apply _ _ _ _ ?_
  show (S64.rowMajor (ix1 l)).val = (S64x1.rowMajor (((cfg0.win 4).blk t).view.emb (ix2 l (0 : Fin 1)))).val
  rw [Shape.rowMajor_val_one, Shape.rowMajor_val_two]
  show l.val = (win0_4.index t (0 : Fin 2) * 64 + 1 * l.val) * 1 + (win0_4.index t (1 : Fin 2) * 1 + 1 * 0)
  omega

/-! ## The tables of a sentence, from the argument arrays -/

/-- Sentence `b`'s biased head scores. -/
abbrev headTab (c : Dev nD) (b : Fin 8) : (⟨2, ![64, 512]⟩ : Shape).Idx → EReal :=
  Biaffine.headTable (m ((c : Thread nD τ).loc main_arg0)) (m ((c : Thread nD τ).loc main_arg2))
    (m ((c : Thread nD τ).loc main_arg3)) b

/-- Sentence `b`'s dependent scores. -/
abbrev depTab (c : Dev nD) (b : Fin 8) : (⟨2, ![64, 512]⟩ : Shape).Idx → EReal :=
  Biaffine.depTable (m ((c : Thread nD τ).loc main_arg1)) (m ((c : Thread nD τ).loc main_arg2)) b

/-- The head table computed from point `t`'s blocks is its sentence's. -/
theorem head_table_of_point (c : Dev nD) (t : Fin cfg0.N) :
    k0_pay1 (iblk m c 0 t) (iblk m c 2 t) (iblk m c 4 t) = headTab m c (sentence t.val t.isLt) :=
  Stored.head_table_of (iblk m c 0 t) (iblk m c 2 t) (iblk m c 4 t) (m ((c : Thread nD τ).loc main_arg0))
    (m ((c : Thread nD τ).loc main_arg2)) (m ((c : Thread nD τ).loc main_arg3)) (sentence t.val t.isLt)
    (head_block_at m c t) (head_weights_at m c t) (bias_block_at m c t)

/-- The dependent table computed from point `t`'s blocks is its sentence's. -/
theorem dep_table_of_point (c : Dev nD) (t : Fin cfg0.N) :
    k0_pay2 (iblk m c 1 t) (iblk m c 3 t) = depTab m c (sentence t.val t.isLt) :=
  Stored.dep_table_of (iblk m c 1 t) (iblk m c 3 t) (m ((c : Thread nD τ).loc main_arg1))
    (m ((c : Thread nD τ).loc main_arg2)) (sentence t.val t.isLt)
    (dep_block_at m c t) (dep_weights_at m c t)

/-! ## The induction over the points -/

/-- After a sentence's first tile the carried buffers hold that sentence's tables. -/
theorem carried_first_tile (c : Dev nD) (t : Fin cfg0.N) (h0 : t.val % 8 = 0) :
    (outsAt0 m c t.val t.isLt).2.1 = headTab m c (sentence t.val t.isLt)
      ∧ (outsAt0 m c t.val t.isLt).2.2 = depTab m c (sentence t.val t.isLt) := by
  rw [outsAt0_A m c t h0]
  dsimp only
  rw [Tile.head_table_stored, Tile.dep_table_stored]
  exact ⟨head_table_of_point m c t, dep_table_of_point m c t⟩

/-- After every point the carried buffers hold the tables of the point's sentence. -/
theorem carried (c : Dev nD) : ∀ (n : ℕ) (h : n < cfg0.N),
    (outsAt0 m c n h).2.1 = headTab m c (sentence n h) ∧ (outsAt0 m c n h).2.2 = depTab m c (sentence n h) := by
  intro n
  induction n with
  | zero => intro h; exact carried_first_tile m c ⟨0, h⟩ rfl
  | succ n ih =>
    intro h
    have hN : cfg0.N = 64 := N_0
    by_cases h0 : (n + 1) % 8 = 0
    · exact carried_first_tile m c ⟨n + 1, h⟩ h0
    · have hs : sentence n (Nat.lt_of_succ_lt h) = sentence (n + 1) h :=
        Fin.ext (by show n / 8 = (n + 1) / 8; omega)
      rw [outsAt0_B m c ⟨n + 1, h⟩ h0, ← hs]
      exact ih (Nat.lt_of_succ_lt h)

/-! ## Every tile's output block -/

/-- What point `t` leaves in the output's staging buffer: the broadcast sum of its columns of its sentence's tables. -/
theorem block_of_point (c : Dev nD) (t : Fin cfg0.N) :
    (outsAt0 m c t.val t.isLt).1
      = k0_pay3 (F := Ideal) (Tile.headCols (F := Ideal) (grid0.coords t) (headTab m c (sentence t.val t.isLt)))
          (Tile.depCols (F := Ideal) (grid0.coords t) (depTab m c (sentence t.val t.isLt))) := by
  have hN : cfg0.N = 64 := N_0
  by_cases h0 : t.val % 8 = 0
  · rw [outsAt0_A m c t h0]
    dsimp only
    rw [Tile.block_first_tile, head_table_of_point m c t, dep_table_of_point m c t]
  · rw [outsAt0_B m c t h0]
    dsimp only
    rw [Tile.block_later_tile]
    have hs : sentence (t.val - 1) (Nat.lt_of_le_of_lt (Nat.sub_le _ _) t.isLt) = sentence t.val t.isLt :=
      Fin.ext (by show (t.val - 1) / 8 = t.val / 8; have := t.isLt; omega)
    rw [(carried m c (t.val - 1) (Nat.lt_of_le_of_lt (Nat.sub_le _ _) t.isLt)).1,
      (carried m c (t.val - 1) (Nat.lt_of_le_of_lt (Nat.sub_le _ _) t.isLt)).2, hs]

end Cert.KernelIdeal.Carried

end
-- ==== Proof.WholeArray.lean ====
/-
  From the tiles to the whole result array.

  The block written at point n (sentence b = n / 8, tile row u = (n mod 8) / 2, tile column v = n mod 2) sits at
  (b, 0, 128 u, 256 v) of the [8, 64, 512, 512] result and has extents (1, 64, 128, 256). Entry (0, l, p, q) of it
  is column 128 u + p of the sentence's head table plus column 256 v + q of its dependent table, in row l: the score
  at (b, l, 128 u + p, 256 v + q). So each block is the score read through the block, the 64 blocks tile the array
  (entry (b, l, i, j) lies in the block of point 8 b + 2 (i / 128) + j / 256), and the array after the run is the
  score everywhere.
-/
import proofs.«170263_j56049323213774_2_alg».proof.Proof.CarriedTables

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The score of the argument arrays as launched: what the result array is claimed to end holding. -/
abbrev scoreArr (c : Dev nD) : (⟨4, ![8, 64, 512, 512]⟩ : Shape).Idx → EReal :=
  Biaffine.score (m ((c : Thread nD τ).loc main_arg0)) (m ((c : Thread nD τ).loc main_arg1))
    (m ((c : Thread nD τ).loc main_arg2)) (m ((c : Thread nD τ).loc main_arg3))

/-- Where the output block of each point sits, and the tile coordinates of the point, decided over the 64 points. -/
theorem out_block_place : ∀ t : Fin cfg0.N,
    win0_5.index t (0 : Fin 4) = t.val / 8 ∧ win0_5.index t (1 : Fin 4) = 0
    ∧ win0_5.index t (2 : Fin 4) = t.val % 8 / 2 ∧ win0_5.index t (3 : Fin 4) = t.val % 2
    ∧ (grid0.coords t 1).val = t.val % 8 / 2 ∧ (grid0.coords t 2).val = t.val % 2 :=
  (by decide +kernel : ∀ t : Fin grid0.N, _)

/-- The broadcast sum of a tile's columns of two tables, at an entry: the tables at the columns' places. -/
theorem cols_block_at (i : grid0.Coords) (H Dt : Vec Ideal S64x512 .f32) (l : Fin 64) (p : Fin 128) (q : Fin 256)
    (ci cj : Fin 512) (hi : ci.val = 128 * (i 1).val + p.val) (hj : cj.val = 256 * (i 2).val + q.val) :
    k0_pay3 (Tile.headCols i H) (Tile.depCols i Dt) (ix4 (0 : Fin 1) l p q) = H (ix2 l ci) + Dt (ix2 l cj) := by
  rw [Stored.block_at]
  have o1 := k0_off1_eq i
  have o2 := k0_off2_eq i
  congr 1
  · refine congrArg H (funext fun a => Fin.ext ?_)
    match a with
    | ⟨0, _⟩ => show k0_off1 i 0 + 1 * l.val = l.val; rw [o1]; show 0 + 1 * l.val = l.val; omega
    | ⟨1, _⟩ => show k0_off1 i 1 + 1 * p.val = ci.val; rw [o1, hi]; show 128 * (i 1).val + 1 * p.val = _; omega
  · refine congrArg Dt (funext fun a => Fin.ext ?_)
    match a with
    | ⟨0, _⟩ => show k0_off2 i 0 + 1 * l.val = l.val; rw [o2]; show 0 + 1 * l.val = l.val; omega
    | ⟨1, _⟩ => show k0_off2 i 1 + 1 * q.val = cj.val; rw [o2, hj]; show 256 * (i 2).val + 1 * q.val = _; omega

/-- What point `t` writes back is the score read through the point's block. -/
theorem flushed_eq (c : Dev nD) (t : Fin cfg0.N) :
    (dats m 0 c).flushed 5 t = ((cfg0.win 5).blk t).view.read (Elt Ideal) (scoreArr m c) := by
  rw [Value.flushed5, Carried.block_of_point]
  obtain ⟨e0, e1, e2, e3, e4, e5⟩ := out_block_place t
  have hN : cfg0.N = 64 := N_0
  have ht : t.val < 64 := lt_of_lt_of_eq t.isLt hN
  refine funext fun (y : S1x64x128x256.Idx) => ?_
  obtain ⟨u, l, p, q, rfl⟩ : ∃ (u : Fin 1) (l : Fin 64) (p : Fin 128) (q : Fin 256), y = ix4 u l p q :=
    ⟨y 0, y 1, y 2, y 3, eq_ix4 y⟩
  obtain rfl : u = 0 := Subsingleton.elim _ _
  have hp : p.val < 128 := p.isLt
  have hq : q.val < 256 := q.isLt
  have hci : 128 * (grid0.coords t 1).val + p.val < 512 := by omega
  have hcj : 256 * (grid0.coords t 2).val + q.val < 512 := by omega
  show k0_pay3 (F := Ideal) (Tile.headCols (F := Ideal) (grid0.coords t) (Carried.headTab m c (Carried.sentence t.val t.isLt)))
      (Tile.depCols (F := Ideal) (grid0.coords t) (Carried.depTab m c (Carried.sentence t.val t.isLt))) (ix4 (0 : Fin 1) l p q)
    = scoreArr m c (((cfg0.win 5).blk t).view.emb (ix4 (0 : Fin 1) l p q))
  refine (cols_block_at (grid0.coords t) (Carried.headTab m c (Carried.sentence t.val t.isLt))
    (Carried.depTab m c (Carried.sentence t.val t.isLt)) l p q
    ⟨128 * (grid0.coords t 1).val + p.val, hci⟩ ⟨256 * (grid0.coords t 2).val + q.val, hcj⟩ rfl rfl).trans ?_
  have hemb : ((cfg0.win 5).blk t).view.emb (ix4 (0 : Fin 1) l p q)
      = ix4 (Carried.sentence t.val t.isLt) l
          (⟨128 * (grid0.coords t 1).val + p.val, hci⟩ : Fin 512) (⟨256 * (grid0.coords t 2).val + q.val, hcj⟩ : Fin 512) := by
    funext a; apply Fin.ext
    match a with
    | ⟨0, _⟩ => show win0_5.index t (0 : Fin 4) * 1 + 1 * 0 = t.val / 8; omega
    | ⟨1, _⟩ => show win0_5.index t (1 : Fin 4) * 64 + 1 * l.val = l.val; omega
    | ⟨2, _⟩ => show win0_5.index t (2 : Fin 4) * 128 + 1 * p.val = 128 * (grid0.coords t 1).val + p.val; omega
    | ⟨3, _⟩ => show win0_5.index t (3 : Fin 4) * 256 + 1 * q.val = 256 * (grid0.coords t 2).val + q.val; omega
  rw [hemb]
  rfl

/-- An entry of the result array is in point `t`'s block iff each coordinate is in the block's range on its axis. -/
theorem mem_out_block (t : Fin cfg0.N) (y : S8x64x512x512.Idx) :
    y ∈ ((cfg0.win 5).blk t).view.set ↔ ∀ a : Fin 4, win0_5.index t a * S1x64x128x256.size a ≤ (y a).val
      ∧ (y a).val < win0_5.index t a * S1x64x128x256.size a + S1x64x128x256.size a := by
  show y ∈ ((View.whole main_v3).slice (win0_5.rect t)).set ↔ _
  rw [View.set_slice_whole, Rect.mem_set_unit]
  exact Iff.rfl

/-- Every entry of the result array is in some point's block: the blocks tile the array. -/
theorem covered (y : S8x64x512x512.Idx) :
    ∃ t : Fin cfg0.N, (cfg0.win 5).flush t = true ∧ y ∈ ((cfg0.win 5).blk t).view.set := by
  have h0 : (y 0).val < 8 := (y 0).isLt
  have h1 : (y 1).val < 64 := (y 1).isLt
  have h2 : (y 2).val < 512 := (y 2).isLt
  have h3 : (y 3).val < 512 := (y 3).isLt
  have hN : cfg0.N = 64 := N_0
  have hlt : 8 * (y 0).val + 2 * ((y 2).val / 128) + (y 3).val / 256 < cfg0.N := by omega
  obtain ⟨e0, e1, e2, e3, -, -⟩ := out_block_place ⟨8 * (y 0).val + 2 * ((y 2).val / 128) + (y 3).val / 256, hlt⟩
  refine ⟨⟨8 * (y 0).val + 2 * ((y 2).val / 128) + (y 3).val / 256, hlt⟩, flush0_5 _, ?_⟩
  rw [mem_out_block]
  intro a
  match a with
  | ⟨0, _⟩ =>
    show win0_5.index ⟨8 * (y 0).val + 2 * ((y 2).val / 128) + (y 3).val / 256, hlt⟩ (0 : Fin 4) * 1 ≤ (y 0).val
      ∧ (y 0).val < win0_5.index ⟨8 * (y 0).val + 2 * ((y 2).val / 128) + (y 3).val / 256, hlt⟩ (0 : Fin 4) * 1 + 1
    simp only [] at e0
    omega
  | ⟨1, _⟩ =>
    show win0_5.index ⟨8 * (y 0).val + 2 * ((y 2).val / 128) + (y 3).val / 256, hlt⟩ (1 : Fin 4) * 64 ≤ (y 1).val
      ∧ (y 1).val < win0_5.index ⟨8 * (y 0).val + 2 * ((y 2).val / 128) + (y 3).val / 256, hlt⟩ (1 : Fin 4) * 64 + 64
    omega
  | ⟨2, _⟩ =>
    show win0_5.index ⟨8 * (y 0).val + 2 * ((y 2).val / 128) + (y 3).val / 256, hlt⟩ (2 : Fin 4) * 128 ≤ (y 2).val
      ∧ (y 2).val < win0_5.index ⟨8 * (y 0).val + 2 * ((y 2).val / 128) + (y 3).val / 256, hlt⟩ (2 : Fin 4) * 128 + 128
    simp only [] at e2
    omega
  | ⟨3, _⟩ =>
    show win0_5.index ⟨8 * (y 0).val + 2 * ((y 2).val / 128) + (y 3).val / 256, hlt⟩ (3 : Fin 4) * 256 ≤ (y 3).val
      ∧ (y 3).val < win0_5.index ⟨8 * (y 0).val + 2 * ((y 2).val / 128) + (y 3).val / 256, hlt⟩ (3 : Fin 4) * 256 + 256
    simp only [] at e3
    omega

/-- The result array after the run is the score. -/
theorem final (c : Dev nD) : (dats m 0 c).arrAt 5 cfg0.N = scoreArr m c :=
  (dats m 0 c).arrAt_eq_of_cover 5 (scoreArr m c) (fun t _ => flushed_eq m c t) covered

/-- The kernel's run, read: the result array at the score of the arguments as launched, the arguments unchanged. -/
theorem run : θ_run defs (onTc (τ := τ) (main (F := Ideal))) ⟨m, fun _ => 0, ρ⟩ fun r => ∀ c : Dev nD,
      r.2.mem ((c : Thread nD τ).loc main_v3) = scoreArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.ReferenceScore.lean ====
/-
  The reference computes the biaffine label score.

  Read one operation at a time, entry (b, l, i, j) of the reference's result is
      (sum over d of W[l, d] * head[b, i, d]  +  sum over d of W[l, 512 + d] * dep[b, j, d])  +  bias[l]:
  the two slices of W are its left and right halves, each contraction puts the label axis first and the transpose
  brings the sentence axis back in front, the two stretches read the head score at (b, l, i) and the dependent score
  at (b, l, j), and the bias is stretched from its label. That is the score with the bias added last.
-/
import proofs.«170263_j56049323213774_2_alg».proof.Proof.Gen.ReferenceIdeal.Read
import proofs.«170263_j56049323213774_2_alg».proof.Proof.BiaffineSpec

noncomputable section

namespace Cert.ReferenceIdeal.RefScore

open Cert.ReferenceIdeal Cert.ReferenceIdeal.Read Idealize.ShloMosaic Idealize.ShloMosaic.ValueIdx

/-- The reference's last stage, as a function of the four arguments, is the score. -/
theorem reference_is_score (x0 x1 : (⟨S8x512x512, .f32⟩ : BufTy).Contents (Elt Ideal))
    (x2 : (⟨S64x1024, .f32⟩ : BufTy).Contents (Elt Ideal)) (x3 : (⟨S64, .f32⟩ : BufTy).Contents (Elt Ideal)) :
    val_main_v13 (F := Ideal) x0 x1 x2 x3 = Biaffine.score x0 x1 x2 x3 := by
  funext y
  obtain ⟨b, l, i, j, rfl⟩ : ∃ (b : Fin 8) (l : Fin 64) (i j : Fin 512), y = ix4 b l i j :=
    ⟨y 0, y 1, y 2, y 3, eq_ix4 y⟩
  rw [Biaffine.score_ix4_bias_last]
  rw [val_main_v13_apply, val_main_v10_apply, val_main_v8_apply, val_main_v6_apply, val_main_v3_apply,
    val_main_v2_apply, val_main_v9_apply, val_main_v7_apply, val_main_v5_apply, val_main_v4_apply,
    val_main_v12_apply, val_main_v11_apply]
  simp only [val_main_v0_apply, val_main_v1_apply]
  have eW1 : ∀ d : Fin 512,
      idx_main_v0 (lidx_main_v2 (idx_main_v3 (idx_main_v6 (idx_main_v8 (ix4 b l i j)))) d) = ix2 l (Biaffine.leftCol d) :=
    fun d => funext fun a => by match a with | ⟨0, _⟩ => rfl | ⟨1, _⟩ => rfl
  have eH : ∀ d : Fin 512, ridx_main_v2 (idx_main_v3 (idx_main_v6 (idx_main_v8 (ix4 b l i j)))) d = ix3 b i d :=
    fun d => funext fun a => by match a with | ⟨0, _⟩ => rfl | ⟨1, _⟩ => rfl | ⟨2, _⟩ => rfl
  have eW2 : ∀ d : Fin 512,
      idx_main_v1 (lidx_main_v4 (idx_main_v5 (idx_main_v7 (idx_main_v9 (ix4 b l i j)))) d) = ix2 l (Biaffine.rightCol d) :=
    fun d => funext fun a => by match a with | ⟨0, _⟩ => rfl | ⟨1, _⟩ => rfl
  have eD : ∀ d : Fin 512, ridx_main_v4 (idx_main_v5 (idx_main_v7 (idx_main_v9 (ix4 b l i j)))) d = ix3 b j d :=
    fun d => funext fun a => by match a with | ⟨0, _⟩ => rfl | ⟨1, _⟩ => rfl | ⟨2, _⟩ => rfl
  have eB : idx_main_v11 (idx_main_v12 (ix4 b l i j)) = ix1 l :=
    funext fun a => by match a with | ⟨0, _⟩ => rfl
  simp only [eW1, eH, eW2, eD, eB]
  rfl

end Cert.ReferenceIdeal.RefScore

end
-- ==== Proof.lean ====
/-
  The biaffine label-attention kernel against its reference, on the extended reals.

  Both programs compute, for head, dep : [8, 512, 512], W : [64, 1024] and bias : [64],
      out[b, l, i, j] = sum over d of W[l, d] * head[b, i, d] + sum over d of W[l, 512 + d] * dep[b, j, d] + bias[l].
  The kernel walks a grid of 8 sentences by 4 by 2 tiles. At a sentence's first tile it forms the two [64, 512] score
  tables of the sentence (the bias already added to the head scores) in two buffers it keeps across tiles; at every
  tile it writes the [64, 128, 256] block of broadcast sums of the tables' columns. The reference forms the two
  score arrays for all sentences at once, stretches them to the result's shape, adds them, and adds the bias last.
  The two differ in the grouping of the three summands only, and addition on the extended reals is commutative and
  associative, so no entry needs to be finite: the precondition is never opened.

  The frames of the kernel and of its idealization, and the runs they rest on, are the generated ones; the
  reference's frame is its generated run with the result dropped. The idealization rewrote nothing, so that claim is
  trivial. For the equality: Proof/StoredValues reads the body's three stored values at an entry, Proof/TileContents
  what one run of the body leaves in its buffers, Proof/CarriedTables shows by induction over the grid points that the
  kept buffers hold the current sentence's tables and hence what every tile writes, Proof/WholeArray that the 64
  blocks tile the result array with the score (Proof/BiaffineSpec), and Proof/ReferenceScore that the reference's
  last stage is the same score.
-/
import proofs.«170263_j56049323213774_2_alg».proof.Defs
import proofs.«170263_j56049323213774_2_alg».proof.Proof.Gen.Kernel
import proofs.«170263_j56049323213774_2_alg».proof.Proof.Gen.Kernel.Skeleton
import proofs.«170263_j56049323213774_2_alg».proof.Proof.Gen.Kernel.Launch
import proofs.«170263_j56049323213774_2_alg».proof.Proof.Gen.Kernel.Points
import proofs.«170263_j56049323213774_2_alg».proof.Proof.Gen.Kernel.Frame
import proofs.«170263_j56049323213774_2_alg».proof.Proof.Gen.KernelIdeal
import proofs.«170263_j56049323213774_2_alg».proof.Proof.Gen.KernelIdeal.Skeleton
import proofs.«170263_j56049323213774_2_alg».proof.Proof.Gen.KernelIdeal.Launch
import proofs.«170263_j56049323213774_2_alg».proof.Proof.Gen.KernelIdeal.Points
import proofs.«170263_j56049323213774_2_alg».proof.Proof.Gen.KernelIdeal.Frame
import proofs.«170263_j56049323213774_2_alg».proof.Proof.Gen.ReferenceIdeal
import proofs.«170263_j56049323213774_2_alg».proof.Proof.Gen.KernelIdeal.Value
import proofs.«170263_j56049323213774_2_alg».proof.Proof.Gen.ReferenceIdeal.Run
import proofs.«170263_j56049323213774_2_alg».proof.Proof.Gen.ReferenceIdeal.Read
import proofs.«170263_j56049323213774_2_alg».proof.Proof.Gen.Pre_finite_inputs
import proofs.«170263_j56049323213774_2_alg».proof.Proof.WholeArray
import proofs.«170263_j56049323213774_2_alg».proof.Proof.ReferenceScore
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the four arguments both runs end with the result array at the score of those
    arguments: the kernel's by the tiling of its blocks, the reference's stage by stage. -/
theorem algebraic : Cert.algebraic_KernelIdeal_ReferenceIdeal := by
  intro m ρ m' ρ' _ hagree
  refine ⟨fun c => Cert.KernelIdeal.Whole.scoreArr m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefScore.reference_is_score,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
